-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4 : Shape := ⟨2, ![8192, 4]⟩
abbrev S8192 : Shape := ⟨1, ![8192]⟩
abbrev S_ : Shape := ⟨0, ![]⟩

class Facts : Prop where
  bcast_S_S8192x4 : S_.BroadcastsInDim S8192x4 (![] : Fin 0 → Fin S8192x4.rank)
  reducesTo_S8192x4_S_d0_1 : S8192x4.ReducesTo [0, 1] S_
  h_S_ : 0 < S_.numel

variable [Facts]

def fn {F : FTy → Type} [FloatOps F] (main_arg0 : FVec F S8192x4 .f32) (main_arg1 : IVec S8192 32) (main_arg2 : IVec S8192 32) (main_arg3 : FVec F S8192x4 .f32) (main_arg4 : IVec S8192 32) (main_arg5 : IVec S8192 32) : IVec S_ 1 :=
  let main_v0 : FVec F S8192x4 .f32 := Host.absf main_arg0
  let main_cst : FVec F S_ .f32 := constant S_ .f32 0x7F800000#32
  let main_v1 : FVec F S8192x4 .f32 := broadcastInDim S8192x4 ![] bcast_S_S8192x4 main_cst
  let main_v2 : IVec S8192x4 1 := cmpf .olt main_v0 main_v1
  let main_c : IVec S_ 1 := constantI S_ 1 1#1
  let main_v3 : IVec S_ 1 := (fun x v => Host.reduce IntOp.andi x v reducesTo_S8192x4_S_d0_1 h_S_) main_v2 main_c
  let main_v4 : FVec F S8192x4 .f32 := Host.absf main_arg3
  let main_cst_0 : FVec F S_ .f32 := constant S_ .f32 0x7F800000#32
  let main_v5 : FVec F S8192x4 .f32 := broadcastInDim S8192x4 ![] bcast_S_S8192x4 main_cst_0
  let main_v6 : IVec S8192x4 1 := cmpf .olt main_v4 main_v5
  let main_c_1 : IVec S_ 1 := constantI S_ 1 1#1
  let main_v7 : IVec S_ 1 := (fun x v => Host.reduce IntOp.andi x v reducesTo_S8192x4_S_d0_1 h_S_) main_v6 main_c_1
  let main_v8 : IVec S_ 1 := andi main_v3 main_v7
  main_v8
-- ==== Kernel.lean ====
abbrev S8192x4 : Shape := ⟨2, ![8192, 4]⟩
abbrev S8192 : Shape := ⟨1, ![8192]⟩
abbrev S8192x1 : Shape := ⟨2, ![8192, 1]⟩
abbrev S1x8192 : Shape := ⟨2, ![1, 8192]⟩
abbrev S4x8192 : Shape := ⟨2, ![4, 8192]⟩
abbrev S8192x8192 : Shape := ⟨2, ![8192, 8192]⟩
abbrev S2048x4 : Shape := ⟨2, ![2048, 4]⟩
abbrev S2048x1 : Shape := ⟨2, ![2048, 1]⟩
abbrev S4x2048 : Shape := ⟨2, ![4, 2048]⟩
abbrev S1x2048 : Shape := ⟨2, ![1, 2048]⟩
abbrev S2048x2048 : Shape := ⟨2, ![2048, 2048]⟩

abbrev nBuf : Space → Nat
  | .hbm => 12
  | .vmem => 14
  | .smem => 0
  | _ => 0

abbrev bufTy : (tb : Table) → Fin (tcTables nBuf tb) → BufTy
  | .hbm, ⟨0, _⟩ => ⟨S8192x4, .f32⟩
  | .hbm, ⟨1, _⟩ => ⟨S8192, .i32⟩
  | .hbm, ⟨2, _⟩ => ⟨S8192, .i32⟩
  | .hbm, ⟨3, _⟩ => ⟨S8192x4, .f32⟩
  | .hbm, ⟨4, _⟩ => ⟨S8192, .i32⟩
  | .hbm, ⟨5, _⟩ => ⟨S8192, .i32⟩
  | .hbm, ⟨6, _⟩ => ⟨S8192x1, .i32⟩
  | .hbm, ⟨7, _⟩ => ⟨S8192x1, .i32⟩
  | .hbm, ⟨8, _⟩ => ⟨S1x8192, .i32⟩
  | .hbm, ⟨9, _⟩ => ⟨S1x8192, .i32⟩
  | .hbm, ⟨10, _⟩ => ⟨S4x8192, .f32⟩
  | .hbm, ⟨11, _⟩ => ⟨S8192x8192, .f32⟩
  | .local _ .vmem, ⟨0, _⟩ => ⟨S2048x4, .f32⟩
  | .local _ .vmem, ⟨1, _⟩ => ⟨S2048x4, .f32⟩
  | .local _ .vmem, ⟨2, _⟩ => ⟨S2048x1, .i32⟩
  | .local _ .vmem, ⟨3, _⟩ => ⟨S2048x1, .i32⟩
  | .local _ .vmem, ⟨4, _⟩ => ⟨S2048x1, .i32⟩
  | .local _ .vmem, ⟨5, _⟩ => ⟨S2048x1, .i32⟩
  | .local _ .vmem, ⟨6, _⟩ => ⟨S4x2048, .f32⟩
  | .local _ .vmem, ⟨7, _⟩ => ⟨S4x2048, .f32⟩
  | .local _ .vmem, ⟨8, _⟩ => ⟨S1x2048, .i32⟩
  | .local _ .vmem, ⟨9, _⟩ => ⟨S1x2048, .i32⟩
  | .local _ .vmem, ⟨10, _⟩ => ⟨S1x2048, .i32⟩
  | .local _ .vmem, ⟨11, _⟩ => ⟨S1x2048, .i32⟩
  | .local _ .vmem, ⟨12, _⟩ => ⟨S2048x2048, .f32⟩
  | .local _ .vmem, ⟨13, _⟩ => ⟨S2048x2048, .f32⟩
  | _, _ => ⟨S8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S8192_S8192x1 : S8192.ShapeCasts S8192x1
  shapeCasts_S8192_S1x8192 : S8192.ShapeCasts S1x8192
  transposes_S8192x4_S4x8192_1_0 : S8192x4.Transposes [1, 0] S4x8192
  inb_S2048x4_S2048x1_0_0 : ∀ a, (![0, 0] : Fin 2 → Nat) a + S2048x1.size a ≤ S2048x4.size a
  h_S2048x1 : 0 < S2048x1.numel
  inb_S2048x4_S2048x1_0_1 : ∀ a, (![0, 1] : Fin 2 → Nat) a + S2048x1.size a ≤ S2048x4.size a
  inb_S2048x4_S2048x1_0_2 : ∀ a, (![0, 2] : Fin 2 → Nat) a + S2048x1.size a ≤ S2048x4.size a
  inb_S2048x4_S2048x1_0_3 : ∀ a, (![0, 3] : Fin 2 → Nat) a + S2048x1.size a ≤ S2048x4.size a
  inb_S4x2048_S1x2048_0_0 : ∀ a, (![0, 0] : Fin 2 → Nat) a + S1x2048.size a ≤ S4x2048.size a
  h_S1x2048 : 0 < S1x2048.numel
  shapeCasts_S1x2048_S1x2048 : S1x2048.ShapeCasts S1x2048
  inb_S4x2048_S1x2048_1_0 : ∀ a, (![1, 0] : Fin 2 → Nat) a + S1x2048.size a ≤ S4x2048.size a
  inb_S4x2048_S1x2048_2_0 : ∀ a, (![2, 0] : Fin 2 → Nat) a + S1x2048.size a ≤ S4x2048.size a
  inb_S4x2048_S1x2048_3_0 : ∀ a, (![3, 0] : Fin 2 → Nat) a + S1x2048.size a ≤ S4x2048.size a
  broadcasts_S2048x1_S2048x2048 : S2048x1.Broadcasts S2048x2048
  broadcasts_S1x2048_S2048x2048 : S1x2048.Broadcasts S2048x2048
  inb_S2048x1_S2048x1_0_0 : ∀ a, (![0, 0] : Fin 2 → Nat) a + S2048x1.size a ≤ S2048x1.size a
  shapeCasts_S2048x1_S2048x1 : S2048x1.ShapeCasts S2048x1
  inb_S1x2048_S1x2048_0_0 : ∀ a, (![0, 0] : Fin 2 → Nat) a + S1x2048.size a ≤ S1x2048.size a
  inb_S2048x2048_S2048x2048_0_0 : ∀ a, (![0, 0] : Fin 2 → Nat) a + S2048x2048.size a ≤ S2048x2048.size a
  h_S2048x2048 : 0 < S2048x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S8192x4.size a
  hwx0_0 : ∀ i : grid0.Coords, EltTy.bits .f32 = 32 ∨ (Rect.block (s := S8192x4) S2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .i32 = 32 ∨ (Rect.block (s := S8192x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .i32 = 32 ∨ (Rect.block (s := S8192x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x2048.size a ≤ S4x8192.size a
  hwx0_3 : ∀ i : grid0.Coords, EltTy.bits .f32 = 32 ∨ (Rect.block (s := S4x8192) S4x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x8192.size a
  hwx0_4 : ∀ i : grid0.Coords, EltTy.bits .i32 = 32 ∨ (Rect.block (s := S1x8192) S1x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x8192.size a
  hwx0_5 : ∀ i : grid0.Coords, EltTy.bits .i32 = 32 ∨ (Rect.block (s := S1x8192) S1x2048.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S8192x8192.size a
  hwx0_6 : ∀ i : grid0.Coords, EltTy.bits .f32 = 32 ∨ (Rect.block (s := S8192x8192) S2048x2048.size (cc0_transform_6 i) (hinb0_6 i)).WholeWords (EltTy.packing .f32)

variable [Facts₀]

abbrev win0_0 : Pipeline.Window sig grid0 :=
  Pipeline.Window.ofSpec (Memref.whole main_arg0) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2048x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4 : Shape := ⟨2, ![8192, 4]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 107
  | .vmem => 0
  | .smem => 0
  | _ => 0

abbrev bufTy : (tb : Table) → Fin (tcTables nBuf tb) → BufTy
  | .hbm, ⟨0, _⟩ => ⟨S8192x4, .f32⟩
  | .hbm, ⟨1, _⟩ => ⟨S8192, .i32⟩
  | .hbm, ⟨2, _⟩ => ⟨S8192, .i32⟩
  | .hbm, ⟨3, _⟩ => ⟨S8192x4, .f32⟩
  | .hbm, ⟨4, _⟩ => ⟨S8192, .i32⟩
  | .hbm, ⟨5, _⟩ => ⟨S8192, .i32⟩
  | .hbm, ⟨6, _⟩ => ⟨S8192x1, .f32⟩
  | .hbm, ⟨7, _⟩ => ⟨S8192, .f32⟩
  | .hbm, ⟨8, _⟩ => ⟨S8192x1, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192, .f32⟩
  | .hbm, ⟨13, _⟩ => ⟨S8192x1, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192, .f32⟩
  | .hbm, ⟨19, _⟩ => ⟨S8192x1, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192, .f32⟩
  | .hbm, ⟨24, _⟩ => ⟨S8192x1, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192, .f32⟩
  | .hbm, ⟨30, _⟩ => ⟨S8192x1, .f32⟩
  | .hbm, ⟨31, _⟩ => ⟨S8192x1, .f32⟩
  | .hbm, ⟨32, _⟩ => ⟨S8192, .f32⟩
  | .hbm, ⟨33, _⟩ => ⟨S1x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x1, .f32⟩
  | .hbm, ⟨38, _⟩ => ⟨S8192, .f32⟩
  | .hbm, ⟨39, _⟩ => ⟨S8192x1, .f32⟩
  | .hbm, ⟨40, _⟩ => ⟨S8192x1, .f32⟩
  | .hbm, ⟨41, _⟩ => ⟨S8192, .f32⟩
  | .hbm, ⟨42, _⟩ => ⟨S1x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x1, .f32⟩
  | .hbm, ⟨52, _⟩ => ⟨S8192, .f32⟩
  | .hbm, ⟨53, _⟩ => ⟨S8192x1, .f32⟩
  | .hbm, ⟨54, _⟩ => ⟨S8192x1, .f32⟩
  | .hbm, ⟨55, _⟩ => ⟨S8192, .f32⟩
  | .hbm, ⟨56, _⟩ => ⟨S1x8192, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S8192x1, .f32⟩
  | .hbm, ⟨61, _⟩ => ⟨S8192, .f32⟩
  | .hbm, ⟨62, _⟩ => ⟨S8192x1, .f32⟩
  | .hbm, ⟨63, _⟩ => ⟨S8192x1, .f32⟩
  | .hbm, ⟨64, _⟩ => ⟨S8192, .f32⟩
  | .hbm, ⟨65, _⟩ => ⟨S1x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S8192x8192, .f32⟩
  | .hbm, ⟨75, _⟩ => ⟨S8192x1, .f32⟩
  | .hbm, ⟨76, _⟩ => ⟨S1x8192, .f32⟩
  | .hbm, ⟨77, _⟩ => ⟨S8192x8192, .f32⟩
  | .hbm, ⟨78, _⟩ => ⟨S8192x8192, .f32⟩
  | .hbm, ⟨79, _⟩ => ⟨S8192x8192, .f32⟩
  | .hbm, ⟨80, _⟩ => ⟨S8192x8192, .f32⟩
  | .hbm, ⟨81, _⟩ => ⟨S_, .f32⟩
  | .hbm, ⟨82, _⟩ => ⟨S8192x8192, .f32⟩
  | .hbm, ⟨83, _⟩ => ⟨S8192x8192, .i1⟩
  | .hbm, ⟨84, _⟩ => ⟨S_, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S_, .f32⟩
  | .hbm, ⟨89, _⟩ => ⟨S_, .f32⟩
  | .hbm, ⟨90, _⟩ => ⟨S8192x8192, .f32⟩
  | .hbm, ⟨91, _⟩ => ⟨S8192x8192, .f32⟩
  | .hbm, ⟨92, _⟩ => ⟨S8192x1, .i32⟩
  | .hbm, ⟨93, _⟩ => ⟨S1x8192, .i32⟩
  | .hbm, ⟨94, _⟩ => ⟨S8192x8192, .i32⟩
  | .hbm, ⟨95, _⟩ => ⟨S8192x8192, .i32⟩
  | .hbm, ⟨96, _⟩ => ⟨S8192x8192, .i1⟩
  | .hbm, ⟨97, _⟩ => ⟨S8192x1, .i32⟩
  | .hbm, ⟨98, _⟩ => ⟨S1x8192, .i32⟩
  | .hbm, ⟨99, _⟩ => ⟨S8192x8192, .i32⟩
  | .hbm, ⟨100, _⟩ => ⟨S8192x8192, .i32⟩
  | .hbm, ⟨101, _⟩ => ⟨S8192x8192, .i1⟩
  | .hbm, ⟨102, _⟩ => ⟨S8192x8192, .i1⟩
  | .hbm, ⟨103, _⟩ => ⟨S_, .f32⟩
  | .hbm, ⟨104, _⟩ => ⟨S_, .f32⟩
  | .hbm, ⟨105, _⟩ => ⟨S8192x8192, .f32⟩
  | .hbm, ⟨106, _⟩ => ⟨S8192x8192, .f32⟩
  | _, _ => ⟨S8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst : Ref sig .tc := ⟨.hbm, 47, rfl⟩
abbrev main_call0_v0 : Ref sig .tc := ⟨.hbm, 48, rfl⟩
abbrev main_call0_v1 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_0 : Ref sig .tc := ⟨.hbm, 70, rfl⟩
abbrev main_call1_v0 : Ref sig .tc := ⟨.hbm, 71, rfl⟩
abbrev main_call1_v1 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_1 : Ref sig .tc := ⟨.hbm, 81, rfl⟩
abbrev main_v69 : Ref sig .tc := ⟨.hbm, 82, rfl⟩
abbrev main_v70 : Ref sig .tc := ⟨.hbm, 83, rfl⟩
abbrev main_cst_2 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_3 : Ref sig .tc := ⟨.hbm, 88, rfl⟩
abbrev main_call2_v0 : Ref sig .tc := ⟨.hbm, 89, rfl⟩
abbrev main_call2_v1 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_4 : Ref sig .tc := ⟨.hbm, 103, rfl⟩
abbrev main_call3_v0 : Ref sig .tc := ⟨.hbm, 104, rfl⟩
abbrev main_call3_v1 : Ref sig .tc := ⟨.hbm, 105, rfl⟩
abbrev main_v86 : Ref sig .tc := ⟨.hbm, 106, rfl⟩

abbrev nD : Nat := 1
abbrev τ : Topo := Topo.v7x

variable {F : FTy → Type} [FloatOps F]

class Facts₀ : Prop where
  slices_S8192x4_S8192x1_0_2 : S8192x4.Slices ![0, 2] S8192x1
  shapeCasts_S8192x1_S8192 : S8192x1.ShapeCasts S8192
  slices_S8192x4_S8192x1_0_0 : S8192x4.Slices ![0, 0] S8192x1
  slices_S8192x4_S8192x1_0_3 : S8192x4.Slices ![0, 3] S8192x1
  slices_S8192x4_S8192x1_0_1 : S8192x4.Slices ![0, 1] S8192x1
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)

variable [Facts₀]

class Facts : Prop extends Facts₀ where

variable [Facts]
-- ==== Proof.Overlap.lean ====
/-
  Pairwise overlap of two sets of axis-aligned boxes, as a function of the six argument arrays.

  A box is a row (x1, y1, x2, y2).  For a box p of the first set and a box q of the second,
    area p        = (x2 - x1) * (y2 - y1)
    span lo hi    = max 0 (min hi hi' - max lo lo')            (the overlap's extent along one axis)
    inter         = span along x * span along y
    union         = (area p + area q) - inter
    ratio         = inter / max union floor   when union > 0, else 0
  and the entry at (p, q) is the ratio when the two boxes carry the same label and the same batch number,
  and 0 otherwise.  Everything is stated with the float operations of an arbitrary instance, in the order
  in which both programs apply them, so no law of arithmetic is needed to compare them.
-/
import Idealize.ShloMosaic.Lib.ValueIdx

noncomputable section

namespace Cert.Overlap

open Idealize.ShloMosaic Idealize.ShloMosaic.ValueIdx

variable {F : FTy → Type} [FloatOps F]

/-- The float zero. -/
abbrev zero : F .f32 := Scalar.ofBits .f32 0x00000000#32
/-- The floor put under the union before dividing (the single-precision word nearest 1e-12). -/
abbrev floor : F .f32 := Scalar.ofBits .f32 0x2B8CBCCC#32

/-- The area of a box. -/
def area (x1 y1 x2 y2 : F .f32) : F .f32 := FloatOps.mulf (FloatOps.subf x2 x1) (FloatOps.subf y2 y1)

/-- The extent of the overlap of the intervals [lo, hi] and [lo', hi'], cut off below at zero. -/
def span (lo hi lo' hi' : F .f32) : F .f32 :=
  FloatOps.maximumf zero (FloatOps.subf (FloatOps.minimumf hi hi') (FloatOps.maximumf lo lo'))

/-- Intersection over union, zero where the union is not positive. -/
def ratio (inter union : F .f32) : F .f32 :=
  Scalar.select (FloatOps.cmpf .ogt union zero) (FloatOps.divf inter (FloatOps.maximumf union floor)) zero

/-- The entry for one pair of boxes: labels l l', batch numbers b b', corners (x1, y1, x2, y2) and (x1', y1', x2', y2'). -/
def entry (l l' b b' : BitVec 32) (x1 y1 x2 y2 x1' y1' x2' y2' : F .f32) : F .f32 :=
  Scalar.select (IntOp.andi (IntOp.cmpi .eq l l') (IntOp.cmpi .eq b b'))
    (ratio (FloatOps.mulf (span x1 x2 x1' x2') (span y1 y2 y1' y2'))
      (FloatOps.subf (FloatOps.addf (area x1 y1 x2 y2) (area x1' y1' x2' y2'))
        (FloatOps.mulf (span x1 x2 x1' x2') (span y1 y2 y1' y2'))))
    zero

/-- The entry for box `r` of the first set against box `c` of the second, read off the argument arrays. -/
def pair (a : (⟨2, ![8192, 4]⟩ : Shape).Idx → F .f32) (l b : (⟨1, ![8192]⟩ : Shape).Idx → BitVec 32)
    (a' : (⟨2, ![8192, 4]⟩ : Shape).Idx → F .f32) (l' b' : (⟨1, ![8192]⟩ : Shape).Idx → BitVec 32)
    (r c : Fin 8192) : F .f32 :=
  entry (l (ix1 r)) (l' (ix1 c)) (b (ix1 r)) (b' (ix1 c))
    (a (ix2 r 0)) (a (ix2 r 1)) (a (ix2 r 2)) (a (ix2 r 3))
    (a' (ix2 c 0)) (a' (ix2 c 1)) (a' (ix2 c 2)) (a' (ix2 c 3))

/-- The whole 8192 × 8192 table. -/
def table (a : (⟨2, ![8192, 4]⟩ : Shape).Idx → F .f32) (l b : (⟨1, ![8192]⟩ : Shape).Idx → BitVec 32)
    (a' : (⟨2, ![8192, 4]⟩ : Shape).Idx → F .f32) (l' b' : (⟨1, ![8192]⟩ : Shape).Idx → BitVec 32) :
    (⟨2, ![8192, 8192]⟩ : Shape).Idx → F .f32 :=
  fun i => pair a l b a' l' b' (i 0) (i 1)

end Cert.Overlap

end
-- ==== Proof.Blocks.lean ====
/-
  What one grid point of the kernel writes, entry by entry, and the whole table after all sixteen points.

  The grid is 4 × 4; point (I, J) computes the 2048 × 2048 block of the table whose rows are boxes
  2048·I … 2048·I + 2047 of the first set and whose columns are boxes 2048·J … 2048·J + 2047 of the second.
  For the block entry (p, q) the body reads the four corners and the two tags of row box 2048·I + p from the
  row-blocked inputs, and the four corners and the two tags of column box 2048·J + q from the column-blocked
  inputs (the second set's boxes transposed to 4 × 8192, its tags reshaped to 1 × 8192, the first set's tags
  reshaped to 8192 × 1, all before the kernel starts).  So the block entry is the table's entry at
  (2048·I + p, 2048·J + q), and since the sixteen blocks tile the 8192 × 8192 array, the array ends holding the
  table.
-/
import proofs.«139177_j18416819765703_1_alg».proof.Proof.Gen.KernelIdeal.Value
import proofs.«139177_j18416819765703_1_alg».proof.Proof.Overlap
import Idealize.ShloMosaic.Lib.Pipeline.Value
import Idealize.ShloMosaic.Lib.StableHlo.Run

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.Overlap
open Idealize.ShloMosaic.Pipeline (Dat)

variable {F : FTy → Type} [FloatOps F]
variable (m : (ℓ : Loc nD τ sig) → Buf (Elt F) ℓ) (ρ : Dev nD → PrngReg)

/-! ## One block entry from the twelve values loaded for it -/

/-- Where a block entry reads a column vector indexed by the block's rows: at its own row, column 0. -/
abbrev rowIx (y : S2048x2048.Idx) : S2048x1.Idx := ix6_0 y
/-- Where a block entry reads a row vector indexed by the block's columns: at row 0, its own column. -/
abbrev colIx (y : S2048x2048.Idx) : S1x2048.Idx := ix6_1 y

/-- The block entry is the pair formula of the twelve values the body loads for it: every row quantity is read at
    the entry's row, every column quantity at the entry's column. -/
theorem block_entry (P0 : Vec F S2048x1 .i32) (P1 : Vec F S1x2048 .i32) (P2 : Vec F S2048x1 .i32) (P3 : Vec F S1x2048 .i32)
    (P4 : Vec F S2048x1 .f32) (P5 : Vec F S2048x1 .f32) (P6 : Vec F S2048x1 .f32) (P7 : Vec F S2048x1 .f32)
    (P8 : Vec F S1x2048 .f32) (P9 : Vec F S1x2048 .f32) (P10 : Vec F S1x2048 .f32) (P11 : Vec F S1x2048 .f32) (y : S2048x2048.Idx) :
    E6 P0 P1 P2 P3 P4 P5 P6 P7 P8 P9 P10 P11 y
      = entry (P0 (rowIx y)) (P1 (colIx y)) (P2 (rowIx y)) (P3 (colIx y))
          (P5 (rowIx y)) (P7 (rowIx y)) (P4 (rowIx y)) (P6 (rowIx y))
          (P9 (colIx y)) (P11 (colIx y)) (P8 (colIx y)) (P10 (colIx y)) := rfl

/-! ## Where the blocks sit -/

/-- The index maps over the sixteen grid points: the row-blocked inputs move with the output's row block and sit at
    column block 0; the column-blocked inputs move with the output's column block and sit at row block 0. -/
theorem block_coords : ∀ t : Fin cfg0.N,
      win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = win0_6.index t (1 : Fin 2)
    ∧ win0_4.index t (0 : Fin 2) = 0 ∧ win0_4.index t (1 : Fin 2) = win0_6.index t (1 : Fin 2)
    ∧ win0_5.index t (0 : Fin 2) = 0 ∧ win0_5.index t (1 : Fin 2) = win0_6.index t (1 : Fin 2) :=
  (by decide +kernel : ∀ t : Fin grid0.N, _)

/-- The output's block coordinates are at most 3 (the grid is 4 × 4). -/
theorem out_le : ∀ t : Fin cfg0.N, win0_6.index t (0 : Fin 2) ≤ 3 ∧ win0_6.index t (1 : Fin 2) ≤ 3 :=
  (by decide +kernel : ∀ t : Fin grid0.N, _)

/-- Every pair of block coordinates is some grid point's. -/
theorem out_onto : ∀ (I J : Fin 4), ∃ t : Fin cfg0.N, win0_6.index t = ![I.val, J.val] :=
  (by decide +kernel : ∀ (I J : Fin 4), ∃ t : Fin grid0.N, win0_6.index t = ![I.val, J.val])

/-- The table row of block entry `y` at point `t`: 2048 · (row block) + (row inside the block). -/
def rowOf (t : Fin cfg0.N) (y : S2048x2048.Idx) : Fin 8192 :=
  ⟨win0_6.index t (0 : Fin 2) * 2048 + (y 0).val, by
    have h := (out_le t).1; have hy : (y 0).val < 2048 := (y 0).isLt; omega⟩
/-- The table column of block entry `y` at point `t`: 2048 · (column block) + (column inside the block). -/
def colOf (t : Fin cfg0.N) (y : S2048x2048.Idx) : Fin 8192 :=
  ⟨win0_6.index t (1 : Fin 2) * 2048 + (y 1).val, by
    have h := (out_le t).2; have hy : (y 1).val < 2048 := (y 1).isLt; omega⟩

/-- Where the output's block at point `t` puts its entry `y` in the table. -/
theorem emb_out (t : Fin cfg0.N) (y : S2048x2048.Idx) :
    (((cfg0.win 6).blk t).view.emb y : S8192x8192.Idx) = ix2 (rowOf t y) (colOf t y) := by
  funext a; apply Fin.ext
  match a with
  | ⟨0, _⟩ => show win0_6.index t (0 : Fin 2) * 2048 + 1 * (y 0).val = win0_6.index t (0 : Fin 2) * 2048 + (y 0).val; omega
  | ⟨1, _⟩ => show win0_6.index t (1 : Fin 2) * 2048 + 1 * (y 1).val = win0_6.index t (1 : Fin 2) * 2048 + (y 1).val; omega

/-! ## The twelve loads, read off the argument arrays -/

/-- Corner `k` of the entry's row box: the load of column `k` of the first set's block, read at the entry's row, is
    the first argument at (the entry's table row, `k`). -/
theorem rois0_side (c : Dev nD) (t : Fin cfg0.N) (y : S2048x2048.Idx) (k : Nat) (hk : k < 4)
    (inb : ∀ a, (![0, k] : Fin 2 → Nat) a + S2048x1.size a ≤ S2048x4.size a) :
    View.ld (iblk m c 0 t) (Rect.unit (s := S2048x4) ![0, k] S2048x1.size inb) (rowIx y)
      = m ((c : Thread nD τ).loc main_arg0) (ix2 (rowOf t y) ⟨k, hk⟩) := by
  show V m c main_arg0 (((cfg0.win 0).blk t).view.emb ((Rect.unit (s := S2048x4) ![0, k] S2048x1.size inb).emb (rowIx y))) = _
  rw [V_main_arg0]
  refine congrArg _ (funext fun a => Fin.ext ?_)
  obtain ⟨e0, e1, -⟩ := block_coords t
  match a with
  | ⟨0, _⟩ =>
    show win0_0.index t (0 : Fin 2) * 2048 + 1 * (0 + 1 * (y 0).val) = win0_6.index t (0 : Fin 2) * 2048 + (y 0).val
    omega
  | ⟨1, _⟩ =>
    show win0_0.index t (1 : Fin 2) * 4 + 1 * (k + 1 * 0) = k
    omega

/-- The first set's labels were reshaped to a column before the kernel started: the block's load at the entry's row
    is the label of the entry's row box. -/
theorem labels0_at (c : Dev nD) (t : Fin cfg0.N) (y : S2048x2048.Idx) :
    View.ld (iblk m c 1 t) r0_8 (rowIx y) = m ((c : Thread nD τ).loc main_arg1) (ix1 (rowOf t y)) := by
  show V m c main_v0 (((cfg0.win 1).blk t).view.emb (r0_8.emb (rowIx y))) = _
  have e : (V m c main_v0 : S8192x1.Idx → Elt F .i32)
      = shapeCast S8192x1 (m ((c : Thread nD τ).loc main_arg1)) shapeCasts_S8192_S8192x1 := by
    dsimp only [V, hostOps0]; after_results; rfl
  rw [e]
  refine shapeCast_apply _ _ _ _ ?_
  show (S8192.rowMajor (ix1 (rowOf t y))).val = (S8192x1.rowMajor (((cfg0.win 1).blk t).view.emb (r0_8.emb (rowIx y)))).val
  rw [Shape.rowMajor_val_one, Shape.rowMajor_val_two]
  obtain ⟨-, -, e0, e1, -⟩ := block_coords t
  show win0_6.index t (0 : Fin 2) * 2048 + (y 0).val
      = (win0_1.index t (0 : Fin 2) * 2048 + 1 * (0 + 1 * (y 0).val)) * 1 + (win0_1.index t (1 : Fin 2) * 1 + 1 * (0 + 1 * 0))
  omega

/-- The same for the first set's batch numbers. -/
theorem batches0_at (c : Dev nD) (t : Fin cfg0.N) (y : S2048x2048.Idx) :
    View.ld (iblk m c 2 t) r0_8 (rowIx y) = m ((c : Thread nD τ).loc main_arg2) (ix1 (rowOf t y)) := by
  show V m c main_v1 (((cfg0.win 2).blk t).view.emb (r0_8.emb (rowIx y))) = _
  have e : (V m c main_v1 : S8192x1.Idx → Elt F .i32)
      = shapeCast S8192x1 (m ((c : Thread nD τ).loc main_arg2)) shapeCasts_S8192_S8192x1 := by
    dsimp only [V, hostOps0]; after_results; rfl
  rw [e]
  refine shapeCast_apply _ _ _ _ ?_
  show (S8192.rowMajor (ix1 (rowOf t y))).val = (S8192x1.rowMajor (((cfg0.win 2).blk t).view.emb (r0_8.emb (rowIx y)))).val
  rw [Shape.rowMajor_val_one, Shape.rowMajor_val_two]
  obtain ⟨-, -, -, -, e0, e1, -⟩ := block_coords t
  show win0_6.index t (0 : Fin 2) * 2048 + (y 0).val
      = (win0_2.index t (0 : Fin 2) * 2048 + 1 * (0 + 1 * (y 0).val)) * 1 + (win0_2.index t (1 : Fin 2) * 1 + 1 * (0 + 1 * 0))
  omega

/-- Corner `k` of the entry's column box: the second set's boxes were transposed to 4 × 8192 before the kernel started,
    so the load of row `k` of that block, read at the entry's column, is the fourth argument at (the entry's table
    column, `k`). -/
theorem rois1_side (c : Dev nD) (t : Fin cfg0.N) (y : S2048x2048.Idx) (k : Nat) (hk : k < 4)
    (inb : ∀ a, (![k, 0] : Fin 2 → Nat) a + S1x2048.size a ≤ S4x2048.size a) :
    View.ld (iblk m c 3 t) (Rect.unit (s := S4x2048) ![k, 0] S1x2048.size inb) (colIx y)
      = m ((c : Thread nD τ).loc main_arg3) (ix2 (colOf t y) ⟨k, hk⟩) := by
  show V m c main_v4 (((cfg0.win 3).blk t).view.emb ((Rect.unit (s := S4x2048) ![k, 0] S1x2048.size inb).emb (colIx y))) = _
  have e : (V m c main_v4 : S4x8192.Idx → Elt F .f32)
      = transpose S4x8192 [1, 0] (m ((c : Thread nD τ).loc main_arg3)) transposes_S8192x4_S4x8192_1_0 := by
    dsimp only [V, hostOps0]; after_results
  rw [e]
  refine transpose_apply _ _ _ _ _ ?_
  obtain ⟨-, -, -, -, -, -, e0, e1, -⟩ := block_coords t
  intro b
  match b with
  | ⟨0, _⟩ =>
    show k = win0_3.index t (0 : Fin 2) * 4 + 1 * (k + 1 * 0)
    omega
  | ⟨1, _⟩ =>
    show win0_6.index t (1 : Fin 2) * 2048 + (y 1).val = win0_3.index t (1 : Fin 2) * 2048 + 1 * (0 + 1 * (y 1).val)
    omega

/-- The second set's labels were reshaped to a row before the kernel started: the block's load at the entry's column
    is the label of the entry's column box. -/
theorem labels1_at (c : Dev nD) (t : Fin cfg0.N) (y : S2048x2048.Idx) :
    View.ld (iblk m c 4 t) r0_9 (colIx y) = m ((c : Thread nD τ).loc main_arg4) (ix1 (colOf t y)) := by
  show V m c main_v2 (((cfg0.win 4).blk t).view.emb (r0_9.emb (colIx y))) = _
  have e : (V m c main_v2 : S1x8192.Idx → Elt F .i32)
      = shapeCast S1x8192 (m ((c : Thread nD τ).loc main_arg4)) shapeCasts_S8192_S1x8192 := by
    dsimp only [V, hostOps0]; after_results; rfl
  rw [e]
  refine shapeCast_apply _ _ _ _ ?_
  show (S8192.rowMajor (ix1 (colOf t y))).val = (S1x8192.rowMajor (((cfg0.win 4).blk t).view.emb (r0_9.emb (colIx y)))).val
  rw [Shape.rowMajor_val_one, Shape.rowMajor_val_two]
  obtain ⟨-, -, -, -, -, -, -, -, e0, e1, -⟩ := block_coords t
  show win0_6.index t (1 : Fin 2) * 2048 + (y 1).val
      = (win0_4.index t (0 : Fin 2) * 1 + 1 * (0 + 1 * 0)) * 8192 + (win0_4.index t (1 : Fin 2) * 2048 + 1 * (0 + 1 * (y 1).val))
  omega

/-- The same for the second set's batch numbers. -/
theorem batches1_at (c : Dev nD) (t : Fin cfg0.N) (y : S2048x2048.Idx) :
    View.ld (iblk m c 5 t) r0_9 (colIx y) = m ((c : Thread nD τ).loc main_arg5) (ix1 (colOf t y)) := by
  show V m c main_v3 (((cfg0.win 5).blk t).view.emb (r0_9.emb (colIx y))) = _
  have e : (V m c main_v3 : S1x8192.Idx → Elt F .i32)
      = shapeCast S1x8192 (m ((c : Thread nD τ).loc main_arg5)) shapeCasts_S8192_S1x8192 := by
    dsimp only [V, hostOps0]; after_results; rfl
  rw [e]
  refine shapeCast_apply _ _ _ _ ?_
  show (S8192.rowMajor (ix1 (colOf t y))).val = (S1x8192.rowMajor (((cfg0.win 5).blk t).view.emb (r0_9.emb (colIx y)))).val
  rw [Shape.rowMajor_val_one, Shape.rowMajor_val_two]
  obtain ⟨-, -, -, -, -, -, -, -, -, -, e0, e1⟩ := block_coords t
  show win0_6.index t (1 : Fin 2) * 2048 + (y 1).val
      = (win0_5.index t (0 : Fin 2) * 1 + 1 * (0 + 1 * 0)) * 8192 + (win0_5.index t (1 : Fin 2) * 2048 + 1 * (0 + 1 * (y 1).val))
  omega

/-! ## What a grid point writes back, and the array after the run -/

/-- What point `t` writes back is block `t` of the table of the argument arrays. -/
theorem point_writes_block (c : Dev nD) (t : Fin cfg0.N) :
    (dats m 0 c).flushed 6 t = ((cfg0.win 6).blk t).view.read (Elt F)
      (table (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [flushed6]
  funext y
  show out0_6 (iblk m c 0 t) (iblk m c 1 t) (iblk m c 2 t) (iblk m c 3 t) (iblk m c 4 t) (iblk m c 5 t) y
      = table _ _ _ _ _ _ (((cfg0.win 6).blk t).view.emb y)
  unfold out0_6
  rw [canon6_eq, block_entry, emb_out]
  rw [labels0_at, labels1_at, batches0_at, batches1_at,
    rois0_side m c t y 0 (by decide), rois0_side m c t y 1 (by decide), rois0_side m c t y 2 (by decide),
    rois0_side m c t y 3 (by decide),
    rois1_side m c t y 0 (by decide), rois1_side m c t y 1 (by decide), rois1_side m c t y 2 (by decide),
    rois1_side m c t y 3 (by decide)]
  rfl

/-- An index of the table is in point `t`'s block iff each coordinate is in the block's range on its axis. -/
theorem mem_block_iff (t : Fin cfg0.N) (i : S8192x8192.Idx) :
    i ∈ ((cfg0.win 6).blk t).view.set ↔ ∀ a : Fin 2, win0_6.index t a * S2048x2048.size a ≤ (i a).val
      ∧ (i a).val < win0_6.index t a * S2048x2048.size a + S2048x2048.size a := by
  show i ∈ ((View.whole main_v5).slice (win0_6.rect t)).set ↔ _
  rw [View.set_slice_whole, Rect.mem_set_unit]
  exact Iff.rfl

/-- The sixteen blocks tile the table: entry (r, c) is in the block of the point with block coordinates
    (r / 2048, c / 2048). -/
theorem blocks_tile (i : S8192x8192.Idx) :
    ∃ t : Fin cfg0.N, (cfg0.win 6).flush t = true ∧ i ∈ ((cfg0.win 6).blk t).view.set := by
  have hi0 : (i 0).val < 8192 := (i 0).isLt
  have hi1 : (i 1).val < 8192 := (i 1).isLt
  obtain ⟨t, ht⟩ := out_onto ⟨(i 0).val / 2048, by omega⟩ ⟨(i 1).val / 2048, by omega⟩
  have q0 : win0_6.index t (0 : Fin 2) = (i 0).val / 2048 := congrFun ht 0
  have q1 : win0_6.index t (1 : Fin 2) = (i 1).val / 2048 := congrFun ht 1
  refine ⟨t, flush0_6 t, ?_⟩
  rw [mem_block_iff]
  intro a
  match a with
  | ⟨0, _⟩ =>
    show win0_6.index t (0 : Fin 2) * 2048 ≤ (i 0).val ∧ (i 0).val < win0_6.index t (0 : Fin 2) * 2048 + 2048
    omega
  | ⟨1, _⟩ =>
    show win0_6.index t (1 : Fin 2) * 2048 ≤ (i 1).val ∧ (i 1).val < win0_6.index t (1 : Fin 2) * 2048 + 2048
    omega

/-- The result array after the run is the table of the argument arrays. -/
theorem result_is_table (c : Dev nD) : (dats m 0 c).arrAt 6 cfg0.N
    = table (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => point_writes_block m c t) blocks_tile

/-- Every weakly fair execution of the kernel's program terminates without a fault, with the result array at the
    table of the argument arrays and the arguments unchanged. -/
theorem run : θ_run defs (onTc (τ := τ) (main (F := F))) ⟨m, fun _ => 0, ρ⟩ fun r => ∀ c : Dev nD,
      r.2.mem ((c : Thread nD τ).loc main_v5)
        = table (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (result_is_table m c), (h c).2⟩) (run_blocks m ρ)

end Cert.KernelIdeal.Blocks

end
-- ==== Proof.RefTable.lean ====
/-
  The reference program computes the table.

  The reference slices each corner out of the two box arrays as a vector over the boxes, forms the two area vectors,
  broadcasts every vector over the 8192 × 8192 pairs (the first set's along rows, the second set's along columns)
  and then applies, pair by pair, exactly the operations of the pair formula: min / max / subtract / clamp at zero for
  the two spans, their product, the union, the comparison with zero, the quotient by the floored union, and the two
  selects.  Read at a pair (r, c), each broadcast slice is one corner of box r or of box c, so the result at (r, c)
  is the pair formula of those corners and tags.  The host's quotient and the pair formula's are the same function
  on the extended reals.
-/
import proofs.«139177_j18416819765703_1_alg».proof.Proof.Gen.ReferenceIdeal.Read
import proofs.«139177_j18416819765703_1_alg».proof.Proof.Overlap

noncomputable section

namespace Cert.ReferenceIdeal.RefTable

open Cert.ReferenceIdeal Cert.ReferenceIdeal.Gen Cert.ReferenceIdeal.Read Idealize.ShloMosaic Idealize.ShloMosaic.TcCoe Idealize.SL.Sem
open Idealize.ShloMosaic.ValueIdx Cert.Overlap

/-- Two indices of a rank-2 shape are equal when their two coordinates are the same numbers; the first coordinate
    comes back from the reshape of a column to a vector as a quotient by 1. -/
local macro "coords2" : tactic =>
  `(tactic| (funext a; match a with | ⟨0, _⟩ => exact Fin.ext (Nat.div_one _) | ⟨1, _⟩ => rfl))
/-- The same at rank 1. -/
local macro "coords1" : tactic => `(tactic| (funext a; match a with | ⟨0, _⟩ => rfl))

/-- The reference's result, as a function of its six arguments, is the table. -/
theorem ref_table (x0 : (⟨S8192x4, .f32⟩ : BufTy).Contents (Elt Ideal)) (x1 x2 : (⟨S8192, .i32⟩ : BufTy).Contents (Elt Ideal))
    (x3 : (⟨S8192x4, .f32⟩ : BufTy).Contents (Elt Ideal)) (x4 x5 : (⟨S8192, .i32⟩ : BufTy).Contents (Elt Ideal)) :
    val_main_v86 (F := Ideal) x0 x1 x2 x3 x4 x5 = table (F := Ideal) x0 x1 x2 x3 x4 x5 := by
  funext i
  -- every operation read at the pair `i`, down to the arguments
  simp only [val_main_v86_apply, val_main_call3_v1_apply, val_main_call3_v0_apply, val_main_cst_4_apply, val_main_v85_apply,
    val_main_v84_apply, val_main_v83_apply, val_main_v82_apply, val_main_v81_apply, val_main_v80_apply, val_main_v79_apply,
    val_main_v78_apply, val_main_v77_apply, val_main_v76_apply, val_main_v75_apply, val_main_v74_apply, val_main_call2_v1_apply,
    val_main_call2_v0_apply, val_main_cst_3_apply, val_main_v73_apply, val_main_v72_apply, val_main_v71_apply, val_main_cst_2_apply,
    val_main_v70_apply, val_main_v69_apply, val_main_cst_1_apply, val_main_v68_apply, val_main_v67_apply, val_main_v66_apply,
    val_main_v65_apply, val_main_v64_apply, val_main_v63_apply, val_main_v62_apply, val_main_v61_apply, val_main_call1_v1_apply,
    val_main_call1_v0_apply, val_main_cst_0_apply, val_main_v60_apply, val_main_v59_apply, val_main_v58_apply, val_main_v57_apply,
    val_main_v56_apply, val_main_v55_apply, val_main_v54_apply, val_main_v53_apply, val_main_v52_apply, val_main_v51_apply,
    val_main_v50_apply, val_main_v49_apply, val_main_v48_apply, val_main_v47_apply, val_main_v46_apply, val_main_v45_apply,
    val_main_v44_apply, val_main_v43_apply, val_main_v42_apply, val_main_v41_apply, val_main_call0_v1_apply, val_main_call0_v0_apply,
    val_main_cst_apply, val_main_v40_apply, val_main_v39_apply, val_main_v38_apply, val_main_v37_apply, val_main_v36_apply,
    val_main_v35_apply, val_main_v34_apply, val_main_v33_apply, val_main_v32_apply, val_main_v31_apply, val_main_v30_apply,
    val_main_v29_apply, val_main_v28_apply, val_main_v27_apply, val_main_v26_apply, val_main_v25_apply, val_main_v24_apply,
    val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply]
  -- the tags: a vector broadcast along rows is read at the pair's row, one broadcast along columns at its column
  have l0 : idx_main_v75 (idx_main_v77 i) = ix1 (i 0 : Fin 8192) := by coords1
  have l1 : idx_main_v76 (idx_main_v78 i) = ix1 (i 1 : Fin 8192) := by coords1
  have b0 : idx_main_v80 (idx_main_v82 i) = ix1 (i 0 : Fin 8192) := by coords1
  have b1 : idx_main_v81 (idx_main_v83 i) = ix1 (i 1 : Fin 8192) := by coords1
  -- the corners inside the two areas
  have a02 : idx_main_v0 (idx_main_v1 (idx_main_v63 (idx_main_v65 i))) = ix2 (i 0 : Fin 8192) (2 : Fin 4) := by coords2
  have a00 : idx_main_v2 (idx_main_v3 (idx_main_v63 (idx_main_v65 i))) = ix2 (i 0 : Fin 8192) (0 : Fin 4) := by coords2
  have a03 : idx_main_v5 (idx_main_v6 (idx_main_v63 (idx_main_v65 i))) = ix2 (i 0 : Fin 8192) (3 : Fin 4) := by coords2
  have a01 : idx_main_v7 (idx_main_v8 (idx_main_v63 (idx_main_v65 i))) = ix2 (i 0 : Fin 8192) (1 : Fin 4) := by coords2
  have a12 : idx_main_v11 (idx_main_v12 (idx_main_v64 (idx_main_v66 i))) = ix2 (i 1 : Fin 8192) (2 : Fin 4) := by coords2
  have a10 : idx_main_v13 (idx_main_v14 (idx_main_v64 (idx_main_v66 i))) = ix2 (i 1 : Fin 8192) (0 : Fin 4) := by coords2
  have a13 : idx_main_v16 (idx_main_v17 (idx_main_v64 (idx_main_v66 i))) = ix2 (i 1 : Fin 8192) (3 : Fin 4) := by coords2
  have a11 : idx_main_v18 (idx_main_v19 (idx_main_v64 (idx_main_v66 i))) = ix2 (i 1 : Fin 8192) (1 : Fin 4) := by coords2
  -- the corners inside the two spans
  have s02 : idx_main_v22 (idx_main_v23 (idx_main_v24 (idx_main_v28 i))) = ix2 (i 0 : Fin 8192) (2 : Fin 4) := by coords2
  have s12 : idx_main_v25 (idx_main_v26 (idx_main_v27 (idx_main_v29 i))) = ix2 (i 1 : Fin 8192) (2 : Fin 4) := by coords2
  have s00 : idx_main_v31 (idx_main_v32 (idx_main_v33 (idx_main_v37 i))) = ix2 (i 0 : Fin 8192) (0 : Fin 4) := by coords2
  have s10 : idx_main_v34 (idx_main_v35 (idx_main_v36 (idx_main_v38 i))) = ix2 (i 1 : Fin 8192) (0 : Fin 4) := by coords2
  have s03 : idx_main_v42 (idx_main_v43 (idx_main_v44 (idx_main_v48 i))) = ix2 (i 0 : Fin 8192) (3 : Fin 4) := by coords2
  have s13 : idx_main_v45 (idx_main_v46 (idx_main_v47 (idx_main_v49 i))) = ix2 (i 1 : Fin 8192) (3 : Fin 4) := by coords2
  have s01 : idx_main_v51 (idx_main_v52 (idx_main_v53 (idx_main_v57 i))) = ix2 (i 0 : Fin 8192) (1 : Fin 4) := by coords2
  have s11 : idx_main_v54 (idx_main_v55 (idx_main_v56 (idx_main_v58 i))) = ix2 (i 1 : Fin 8192) (1 : Fin 4) := by coords2
  rw [l0, l1, b0, b1, a02, a00, a03, a01, a12, a10, a13, a11, s02, s12, s00, s10, s03, s13, s01, s11]
  rfl

end Cert.ReferenceIdeal.RefTable

end
-- ==== Proof.lean ====
/-
  The pairwise overlap table of two sets of 8192 boxes: the tiled kernel against the plain array program.

  Both programs compute, for every pair (box r of the first set, box c of the second), the same formula in the same
  order of operations: the two areas, the overlap's extent along each axis clamped at zero, their product, the union,
  the quotient of the two where the union is positive, and zero unless the two boxes carry the same label and the same
  batch number (`Proof/Overlap.lean`).  The kernel does it in sixteen 2048 × 2048 blocks, each from the matching
  2048 rows of the first set and the matching 2048 columns of the second set (transposed and reshaped before the kernel
  starts); the blocks tile the table (`Proof/Blocks.lean`).  The reference does it on whole arrays, broadcasting each
  sliced corner over all pairs (`Proof/RefTable.lean`).  No law of arithmetic is used, only where each operand is read,
  so the finiteness of the inputs is never opened.  The kernel's idealization rewrote no operation, so there is
  nothing to preserve.
-/
import proofs.«139177_j18416819765703_1_alg».proof.Defs
import proofs.«139177_j18416819765703_1_alg».proof.Proof.Gen.Kernel
import proofs.«139177_j18416819765703_1_alg».proof.Proof.Gen.Kernel.Skeleton
import proofs.«139177_j18416819765703_1_alg».proof.Proof.Gen.Kernel.Launch
import proofs.«139177_j18416819765703_1_alg».proof.Proof.Gen.Kernel.Points
import proofs.«139177_j18416819765703_1_alg».proof.Proof.Gen.Kernel.Frame
import proofs.«139177_j18416819765703_1_alg».proof.Proof.Gen.KernelIdeal
import proofs.«139177_j18416819765703_1_alg».proof.Proof.Gen.KernelIdeal.Skeleton
import proofs.«139177_j18416819765703_1_alg».proof.Proof.Gen.KernelIdeal.Launch
import proofs.«139177_j18416819765703_1_alg».proof.Proof.Gen.KernelIdeal.Points
import proofs.«139177_j18416819765703_1_alg».proof.Proof.Gen.KernelIdeal.Frame
import proofs.«139177_j18416819765703_1_alg».proof.Proof.Gen.KernelIdeal.Value
import proofs.«139177_j18416819765703_1_alg».proof.Proof.Gen.ReferenceIdeal
import proofs.«139177_j18416819765703_1_alg».proof.Proof.Gen.ReferenceIdeal.Run
import proofs.«139177_j18416819765703_1_alg».proof.Proof.Gen.ReferenceIdeal.Read
import proofs.«139177_j18416819765703_1_alg».proof.Proof.Gen.Pre_finite_inputs
import proofs.«139177_j18416819765703_1_alg».proof.Proof.Overlap
import proofs.«139177_j18416819765703_1_alg».proof.Proof.Blocks
import proofs.«139177_j18416819765703_1_alg».proof.Proof.RefTable
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories that agree on the six arguments, both programs end with the table of those
    arguments in their result array. -/
theorem algebraic : Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v86_eq, Cert.ReferenceIdeal.RefTable.ref_table, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
